-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S600000 .f32) (main_arg3 : FVec F S128x128 .f32) (main_arg4 : FVec F S128 .f32) (main_arg5 : FVec F S128x128 .f32) (main_arg6 : FVec F S128 .f32) (main_arg7 : FVec F S1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1 : Shape := ⟨1, ![1]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩

abbrev nBuf : Space → Nat
  | .hbm => 29
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1, .f32⟩
  | .hbm, ⟨8, _⟩ => ⟨S1, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S128x128, .bf16⟩
  | .hbm, ⟨27, _⟩ => ⟨S1x128, .f32⟩
  | .hbm, ⟨28, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1 : Shape := ⟨1, ![1]⟩
abbrev S1x128 : Shape := ⟨2, ![1, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1, .f32⟩
  | .hbm, ⟨8, _⟩ => ⟨S1, .f32⟩
  | .hbm, ⟨9, _⟩ => ⟨S50000x128, .f32⟩
  | .hbm, ⟨10, _⟩ => ⟨S1x128, .f32⟩
  | .hbm, ⟨11, _⟩ => ⟨S50000x128, .f32⟩
  | .hbm, ⟨12, _⟩ => ⟨S50000x128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.HostPrefix.lean ====
/-
  What the kernel's region finds in its three operand arrays.

  Before the region the host aggregates neighbour features and prepares the weights and the bias:
  * the edge list's first row gives each edge's source node, its second row the destination node; a negative
    source index is wrapped by adding the node count 50000; the source rows of the feature matrix are
    gathered, one per edge, and added into a zero matrix at their destination rows (`aggregated`);
  * the weight matrix changes float format;
  * the bias vector is laid out as one row.
  Each of the three arrays the region reads is that term of the argument arrays.
-/
import proofs.«134765_j21689584844830_2_alg».proof.Proof.Gen.KernelIdeal.Frame
import Idealize.ShloMosaic.Lib.StableHlo.Run

noncomputable section

namespace Cert.KernelIdeal.HostPrefix

open Cert.KernelIdeal Cert.KernelIdeal.Gen
open Idealize.ShloMosaic Idealize.ShloMosaic.TcCoe Idealize.SL.Sem Idealize.ShloMosaic.StableHlo

variable {F : FTy → Type} [FloatOps F]

/-- Each edge's source node: the first row of the edge list. -/
def sources (e : (⟨S2x600000, .i32⟩ : BufTy).Contents (Elt F)) : (⟨S600000, .i32⟩ : BufTy).Contents (Elt F) :=
  shapeCast S600000 (extractStridedSlice S1x600000 ![0, 0] e slices_S2x600000_S1x600000_0_0) shapeCasts_S1x600000_S600000

/-- Each edge's destination node: the second row of the edge list. -/
def targets (e : (⟨S2x600000, .i32⟩ : BufTy).Contents (Elt F)) : (⟨S600000, .i32⟩ : BufTy).Contents (Elt F) :=
  shapeCast S600000 (extractStridedSlice S1x600000 ![1, 0] e slices_S2x600000_S1x600000_1_0) shapeCasts_S1x600000_S600000

/-- The source indices with a negative one wrapped round by the node count. -/
def wrapped (e : (⟨S2x600000, .i32⟩ : BufTy).Contents (Elt F)) : (⟨S600000, .i32⟩ : BufTy).Contents (Elt F) :=
  select (cmpi .slt (sources (F := F) e) (broadcastInDim S600000 ![] bcast_S_S600000 (constantI S_ 32 0#32)))
    (addi (sources (F := F) e) (broadcastInDim S600000 ![] bcast_S_S600000 (constantI S_ 32 50000#32)))
    (sources (F := F) e)

/-- One row of the feature matrix per edge: its source node's. -/
def gathered (x : (⟨S50000x128, .f32⟩ : BufTy).Contents (Elt F)) (e : (⟨S2x600000, .i32⟩ : BufTy).Contents (Elt F)) :
    (⟨S600000x128, .f32⟩ : BufTy).Contents (Elt F) :=
  Host.gather gather_S50000x128_S600000x1_S600000x128_1_0_n_n_0_1_1128 x
    (broadcastInDim S600000x1 ![0] bcast_S600000_S600000x1_0 (wrapped (F := F) e))

/-- The aggregated features: every edge's source row added into a zero matrix at the edge's destination row. -/
def aggregated (x : (⟨S50000x128, .f32⟩ : BufTy).Contents (Elt F)) (e : (⟨S2x600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant (F := F) S_ .f32 0x00000000#32))
    (broadcastInDim S600000x1 ![0] bcast_S600000_S600000x1_0 (targets (F := F) e))
    (gathered (F := F) x e)

variable (m : (ℓ : Loc nD τ sig) → Buf (Elt F) ℓ)

/-- The region's first operand array holds the aggregated features of the feature matrix and the edge list. -/
theorem found_features (c : Dev nD) :
    (V m c main_v13 : (⟨S50000x128, .f32⟩ : BufTy).Contents (Elt F))
      = aggregated (F := F) (m ((c : Thread nD τ).loc main_arg0)) (m ((c : Thread nD τ).loc main_arg1)) := by
  dsimp only [V, hostOps0]
  after_results <;> rfl

/-- Its second holds the weight matrix in the narrower float format. -/
theorem found_weights (c : Dev nD) :
    (V m c main_v14 : (⟨S128x128, .bf16⟩ : BufTy).Contents (Elt F))
      = truncf .bf16 (m ((c : Thread nD τ).loc main_arg5) : (⟨S128x128, .f32⟩ : BufTy).Contents (Elt F)) bitsLt_bf16_f32 := by
  dsimp only [V, hostOps0]
  after_results <;> rfl

/-- Its third holds the bias laid out as one row. -/
theorem found_bias (c : Dev nD) :
    (V m c main_v15 : (⟨S1x128, .f32⟩ : BufTy).Contents (Elt F))
      = shapeCast S1x128 (m ((c : Thread nD τ).loc main_arg6) : (⟨S128, .f32⟩ : BufTy).Contents (Elt F)) shapeCasts_S128_S1x128 := by
  dsimp only [V, hostOps0]
  after_results <;> rfl

end Cert.KernelIdeal.HostPrefix

end
-- ==== Proof.BlockProduct.lean ====
/-
  What the kernel's body computes for one block, read at an index.

  The body loads a block `X` of 2000 rows of the aggregated features, the whole weight matrix `W` and the
  bias as one row `B`, multiplies `X` by `W` into a zero accumulator, and adds `B` to every row.  On the
  extended reals the change of float format before the product is the identity, the casts to the same shape
  are the identity, and the product into zero is the plain sum, so entry `(p, q)` of what it stores is

      (∑ k < 128, X[p, k] · W[k, q]) + B[0, q].
-/
import proofs.«134765_j21689584844830_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen
open Idealize.ShloMosaic Idealize.ShloMosaic.TcCoe Idealize.ShloMosaic.ValueIdx

/-- The block product's left operand index at output `(p, q)` and contraction index `k`: row `p`, … -/
theorem lhs_row (j : S2000x128.Idx) (u : dot_S2000x128_S128x128_S2000x128_1_0_0_1_n_n.contr.Idx) :
    (dot_S2000x128_S128x128_S2000x128_1_0_0_1_n_n.lhsIdx j u 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … column `k`. -/
theorem lhs_col (j : S2000x128.Idx) (u : dot_S2000x128_S128x128_S2000x128_1_0_0_1_n_n.contr.Idx) :
    (dot_S2000x128_S128x128_S2000x128_1_0_0_1_n_n.lhsIdx j u 1).val = (u ⟨0, by decide⟩).val :=
  dot_S2000x128_S128x128_S2000x128_1_0_0_1_n_n.lhsIdx_val_of_single rfl j u

/-- Its right operand index: row `k`, … -/
theorem rhs_row (j : S2000x128.Idx) (u : dot_S2000x128_S128x128_S2000x128_1_0_0_1_n_n.contr.Idx) :
    (dot_S2000x128_S128x128_S2000x128_1_0_0_1_n_n.rhsIdx j u 0).val = (u ⟨0, by decide⟩).val :=
  dot_S2000x128_S128x128_S2000x128_1_0_0_1_n_n.rhsIdx_val_of_single rfl j u

/-- … column `q`. -/
theorem rhs_col (j : S2000x128.Idx) (u : dot_S2000x128_S128x128_S2000x128_1_0_0_1_n_n.contr.Idx) :
    (dot_S2000x128_S128x128_S2000x128_1_0_0_1_n_n.rhsIdx j u 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a block with the weights into a zero accumulator, at `(p, q)`: the inner product of row `p`
    of the block with column `q` of the weights. -/
theorem product_apply (X : FVec Ideal S2000x128 .bf16) (W : FVec Ideal S128x128 .bf16) (p : Fin 2000) (q : Fin 128) :
    matmul (F := Ideal) dot_S2000x128_S128x128_S2000x128_1_0_0_1_n_n none X W (constant (F := Ideal) S2000x128 .f32 0x00000000#32) (ix2 p q)
      = ∑ k : Fin 128, X (ix2 p k) * W (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row repeated down the block's 2000 rows, at `(p, q)`, is the row's entry `q`. -/
theorem bias_rows_apply (B : FVec Ideal S1x128 .f32) (p : Fin 2000) (q : Fin 128) :
    broadcastTo S2000x128 B broadcasts_S1x128_S2000x128 (ix2 p q) = B (ix2 0 q) :=
  broadcastTo_apply B broadcasts_S1x128_S2000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- What the body stores, at `(p, q)`: the inner product of row `p` of the feature block with column `q` of
    the weights, plus the bias at `q`. -/
theorem payload_apply (X : Vec Ideal S2000x128 .f32) (W : Vec Ideal S128x128 .bf16) (B : Vec Ideal S1x128 .f32)
    (p : Fin 2000) (q : Fin 128) :
    k0_pay1 (F := Ideal) X W B (ix2 p q) = (∑ k : Fin 128, X (ix2 p k) * W (ix2 k q)) + B (ix2 0 q) := by
  unfold k0_pay1
  simp only [shapeCast_self]
  rw [addf_apply, product_apply, bias_rows_apply]
  rfl

end Cert.KernelIdeal.BlockProduct

end
-- ==== Proof.Projection.lean ====
/-
  The node projection of a graph convolution, as one function of its three operands.

  Both programs first aggregate neighbour features (gather the source rows of the feature matrix, add them
  into their destination rows) and then project: row `r` of the aggregated matrix `A` times the weight
  matrix `W`, plus the bias `b`.  Entry `(r, c)` of the result is

      (∑ k < 128, A[r, k] · W[k, c]) + b[c]

  on the extended reals.  The kernel computes it 2000 rows at a time, the reference in one product; this file
  states the function both are compared against, index by index over the literal shapes.
-/
import Idealize.ShloMosaic.PureOps.Ideal
import Idealize.ShloMosaic.Lib.ValueIdx

noncomputable section

namespace Cert.Projection

open Idealize.ShloMosaic Idealize.ShloMosaic.ValueIdx

/-- `project A W b` at `(r, c)` is the inner product of row `r` of `A` with column `c` of `W`, plus `b c`. -/
def project (A : FVec Ideal ⟨2, ![50000, 128]⟩ .f32) (W : FVec Ideal ⟨2, ![128, 128]⟩ .f32)
    (b : FVec Ideal ⟨1, ![128]⟩ .f32) : FVec Ideal ⟨2, ![50000, 128]⟩ .f32 :=
  fun i => (∑ k : Fin 128, A (ix2 (i 0) k) * W (ix2 k (i 1))) + b (ix1 (i 1))

/-- The same, at explicit coordinates. -/
theorem project_apply (A : FVec Ideal ⟨2, ![50000, 128]⟩ .f32) (W : FVec Ideal ⟨2, ![128, 128]⟩ .f32)
    (b : FVec Ideal ⟨1, ![128]⟩ .f32) (r : Fin 50000) (c : Fin 128) :
    project A W b (ix2 r c) = (∑ k : Fin 128, A (ix2 r k) * W (ix2 k c)) + b (ix1 c) := rfl

end Cert.Projection

end
-- ==== Proof.Blocks.lean ====
/-
  From the kernel's blocks to its result array.

  The grid has 25 points.  Point `t` reads rows `2000 t … 2000 t + 1999` of the aggregated features, the whole
  weight matrix and the bias row, and writes rows `2000 t … 2000 t + 1999` of the result.  Entry `(p, q)` of
  what it writes is the inner product of row `p` of its feature block with column `q` of the weights plus the
  bias at `q` — which is entry `(2000 t + p, q)` of the projection of the whole aggregated matrix: a row of a
  matrix product depends on that row of the left factor only.  The 25 row blocks tile the 50000 rows (row `r`
  is in block `r / 2000`), so after the run the result array is the projection.
-/
import proofs.«134765_j21689584844830_2_alg».proof.Proof.Gen.KernelIdeal.Value
import proofs.«134765_j21689584844830_2_alg».proof.Proof.HostPrefix
import proofs.«134765_j21689584844830_2_alg».proof.Proof.BlockProduct
import proofs.«134765_j21689584844830_2_alg».proof.Proof.Projection
import Idealize.ShloMosaic.Lib.Pipeline.Value

noncomputable section

namespace Cert.KernelIdeal.Blocks

open Cert.KernelIdeal Cert.KernelIdeal.Gen Cert.KernelIdeal.Value Cert.KernelIdeal.HostPrefix Cert.KernelIdeal.BlockProduct
open Cert.Projection
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The kernel's result on a device, as a function of the argument arrays: the projection of the aggregated
    features by the weights and the bias. -/
def result (c : Dev nD) : Buf (Elt Ideal) ((c : Thread nD τ).loc main_v16) :=
  project (aggregated (F := Ideal) (m ((c : Thread nD τ).loc main_arg0)) (m ((c : Thread nD τ).loc main_arg1)))
    (m ((c : Thread nD τ).loc main_arg5)) (m ((c : Thread nD τ).loc main_arg6))

/-- One block's arithmetic is the projection's, given which entries of the whole arrays the block's loads are:
    the feature block's row is the aggregated matrix's row `i 0`, the weights are the weights, the bias row's
    entry is the bias vector's. -/
theorem block_is_projection (X : Vec Ideal S2000x128 .f32) (W : Vec Ideal S128x128 .bf16) (B : Vec Ideal S1x128 .f32)
    (A : FVec Ideal S50000x128 .f32) (W' : FVec Ideal S128x128 .f32) (b : FVec Ideal S128 .f32)
    (y : S2000x128.Idx) (i : S50000x128.Idx)
    (hX : ∀ k : Fin 128, X (ix2 (y 0) k) = A (ix2 (i 0) k))
    (hW : ∀ k : Fin 128, W (ix2 k (y 1)) = W' (ix2 k (i 1)))
    (hB : B (ix2 0 (y 1)) = b (ix1 (i 1))) :
    k0_pay1 (F := Ideal) X W B y = project A W' b i := by
  obtain ⟨p, q, rfl⟩ : ∃ (p : Fin 2000) (q : Fin 128), y = ix2 p q := ⟨y 0, y 1, eq_ix2 y⟩
  rw [payload_apply]
  unfold project
  exact congrArg₂ (· + ·) (Finset.sum_congr rfl fun k _ => congrArg₂ (· * ·) (hX k) (hW k)) hB

/-- The bias laid out as one row, read at column `q` of that row, is the bias at `q`. -/
theorem bias_row_apply (b : FVec Ideal S128 .f32) (y : S1x128.Idx) (q : Fin 128) (hq : (y 1).val = q.val) :
    shapeCast S1x128 b shapeCasts_S128_S1x128 y = b (ix1 q) := by
  refine shapeCast_apply b shapeCasts_S128_S1x128 y (ix1 q) ?_
  rw [Shape.rowMajor_val_one, Shape.rowMajor_val_two]
  have h0 : (y 0).val < 1 := (y 0).isLt
  show q.val = (y 0).val * 128 + (y 1).val
  omega

/-- The printed index maps over the 25 points: the feature window moves with the result window down the rows,
    the weight and bias windows stay at the origin, and no window moves along the columns. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 25 row blocks is some point's. -/
theorem index_onto : ∀ r : Fin 25, ∃ t : Fin cfg0.N, win0_3.index t = ![r.val, 0] :=
  (by decide +kernel : ∀ r : Fin 25, ∃ t : Fin grid0.N, win0_3.index t = ![r.val, 0])

/-- What point `t` writes back is block `t` of the projection of the aggregated features. -/
theorem flushed_eq (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S2000x128) origin, View.ld_unit_zero (S := S128x128) origin,
    View.ld_unit_zero (S := S1x128) origin]
  obtain ⟨e00, e01, e10, e11, e20, e21, e31⟩ := index_facts t
  funext j
  show k0_pay1 (iblk m c 0 t) (iblk m c 1 t) (iblk m c 2 t) j = result m c (((cfg0.win 3).blk t).view.emb j)
  unfold result
  refine block_is_projection _ _ _ _ _ _ j _ (fun k => ?_) (fun k => ?_) ?_
  · show V m c main_v13 (((cfg0.win 0).blk t).view.emb (ix2 (j 0) k)) = _
    rw [found_features]
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · show V m c main_v14 (((cfg0.win 1).blk t).view.emb (ix2 k (j 1))) = _
    rw [found_weights, truncf_apply]
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V m c main_v15 (((cfg0.win 2).blk t).view.emb (ix2 0 (j 1))) = _
    rw [found_bias]
    refine bias_row_apply (m ((c : Thread nD τ).loc main_arg6)) (((cfg0.win 2).blk t).view.emb (ix2 0 (j 1)))
      ((((cfg0.win 3).blk t).view.emb j) 1) ?_
    show win0_2.index t (1 : Fin 2) * 128 + 1 * (j 1).val = win0_3.index t (1 : Fin 2) * 128 + 1 * (j 1).val
    omega

/-- An index of the result array is in point `t`'s block iff each coordinate is in the block's range on its axis. -/
theorem mem_block (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v16).slice (win0_3.rect t)).set ↔ _
  rw [View.set_slice_whole, Rect.mem_set_unit]
  exact Iff.rfl

/-- Every index of the result array is in some point's block: row `r` is in row block `r / 2000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the run the result array is the projection of the aggregated features. -/
theorem final (c : Dev nD) : (dats m 0 c).arrAt 3 cfg0.N = result m c :=
  (dats m 0 c).arrAt_eq_of_cover 3 (result m c) (fun t _ => flushed_eq m c t) covered

/-- The kernel's run, read: the result array at the projection of the aggregated features, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Blocks

end
-- ==== Proof.ReferenceProjection.lean ====
/-
  The reference's result is the projection of its aggregated features.

  The reference's last four operations are one matrix product of the aggregated features with the weights,
  the bias laid out as a row and repeated down the 50000 rows, and a sum.  Read at an index `(r, c)` the
  product is `∑ k, A[r, k] · W[k, c]` and the repeated bias is `b[c]`: the projection of `Projection.lean`.
  The aggregation itself (the gather and the scatter-add before them) is left as the one term it is.
-/
import proofs.«134765_j21689584844830_2_alg».proof.Proof.Gen.ReferenceIdeal.Read
import proofs.«134765_j21689584844830_2_alg».proof.Proof.Projection

noncomputable section

namespace Cert.ReferenceIdeal.Projected

open Cert.ReferenceIdeal Cert.ReferenceIdeal.Gen Cert.ReferenceIdeal.Read
open Idealize.ShloMosaic Idealize.ShloMosaic.TcCoe Idealize.ShloMosaic.ValueIdx
open Cert.Projection

/-- The product's left operand index at `(r, c)` and `k` is `(r, k)`. -/
theorem lidx_eq (i : S50000x128.Idx) (k : Fin 128) : lidx_main_v18 i k = ix2 (i 0) k :=
  funext fun a => Fin.ext (by match a with | ⟨0, _⟩ => rfl | ⟨1, _⟩ => rfl)

/-- Its right operand index is `(k, c)`. -/
theorem ridx_eq (i : S50000x128.Idx) (k : Fin 128) : ridx_main_v18 i k = ix2 k (i 1) :=
  funext fun a => Fin.ext (by match a with | ⟨0, _⟩ => rfl | ⟨1, _⟩ => rfl)

/-- The bias repeated down the rows, read at `(r, c)`, is the bias at `c`. -/
theorem bias_idx_eq (i : S50000x128.Idx) : idx_main_v19 (idx_main_v20 i) = ix1 (i 1) :=
  funext fun a => Fin.ext (by match a with | ⟨0, _⟩ => rfl)

/-- The reference's result, as a function of the arguments, is the projection of the aggregated features
    (the scatter-add stage `val_main_v17`) by the weights and the bias. -/
theorem result_eq (x0 : (⟨S50000x128, .f32⟩ : BufTy).Contents (Elt Ideal)) (x1 : (⟨S2x600000, .i32⟩ : BufTy).Contents (Elt Ideal))
    (x5 : (⟨S128x128, .f32⟩ : BufTy).Contents (Elt Ideal)) (x6 : (⟨S128, .f32⟩ : BufTy).Contents (Elt Ideal)) :
    val_main_v21 (F := Ideal) x0 x1 x5 x6 = project (val_main_v17 (F := Ideal) x0 x1) x5 x6 := by
  funext i
  rw [val_main_v21_apply, val_main_v18_apply, val_main_v20_apply, val_main_v19_apply]
  simp only [lidx_eq, ridx_eq, bias_idx_eq, Ideal.addf_def]
  rfl

end Cert.ReferenceIdeal.Projected

end
-- ==== Proof.SameAggregation.lean ====
/-
  The two programs aggregate the neighbour features by the same operations.

  The kernel's host code before its region and the reference perform, on the feature matrix and the edge list,
  the same slices, reshapes, index wrap, gather and scatter-add with the same literals: the two aggregated
  matrices are one term of the two arguments.  (Which rows a gather or a scatter touches depends on the edge
  list's values; nothing here needs to know.)
-/
import proofs.«134765_j21689584844830_2_alg».proof.Proof.HostPrefix
import proofs.«134765_j21689584844830_2_alg».proof.Proof.Gen.ReferenceIdeal.Read

noncomputable section

namespace Cert.SameAggregation

open Idealize.ShloMosaic Idealize.ShloMosaic.TcCoe

/-- The kernel's aggregated features and the reference's scatter-add stage are the same function of the feature
    matrix and the edge list. -/
theorem aggregated_eq (x : (⟨Cert.KernelIdeal.S50000x128, .f32⟩ : BufTy).Contents (Elt Ideal))
    (e : (⟨Cert.KernelIdeal.S2x600000, .i32⟩ : BufTy).Contents (Elt Ideal)) :
    Cert.KernelIdeal.HostPrefix.aggregated (F := Ideal) x e = Cert.ReferenceIdeal.Read.val_main_v17 (F := Ideal) x e := rfl

end Cert.SameAggregation

end
-- ==== Proof.lean ====
/-
  A graph convolution's projection: the kernel against its reference, on the extended reals.

  Both programs aggregate neighbour features — gather the source row of the feature matrix for each of the
  600000 edges and add it into the destination row of a zero matrix — and then project the aggregated matrix
  `A` (50000 × 128) by a weight matrix `W` (128 × 128) and a bias `b`: entry `(r, c)` of the result is
  `(∑ k, A[r, k] · W[k, c]) + b[c]`.

  * The aggregation is the same chain of host operations in both programs, so the two aggregated matrices are
    one term of the feature matrix and the edge list (Proof/SameAggregation.lean over Proof/HostPrefix.lean).
  * The reference projects in one matrix product and one sum (Proof/ReferenceProjection.lean).
  * The kernel projects 2000 rows at a time over a grid of 25 points, the weights first changed to a narrower
    float format — the identity on the extended reals — and each block's product taken into a zero
    accumulator (Proof/BlockProduct.lean); a row of a matrix product depends only on that row of the left
    factor, so each block is the matching rows of the whole projection, and the 25 blocks tile the result
    (Proof/Blocks.lean).
  Both results are therefore `Projection.project` of the same three operands (Proof/Projection.lean).  No law of
  arithmetic beyond reading sums index by index is used, so the finiteness of the inputs is never opened.
  Nothing was rewritten when the kernel was idealized, so that conjunct is trivial; the three frames are the
  generated ones (the reference's is its generated run with the result dropped).
-/
import proofs.«134765_j21689584844830_2_alg».proof.Defs
import proofs.«134765_j21689584844830_2_alg».proof.Proof.Gen.Kernel
import proofs.«134765_j21689584844830_2_alg».proof.Proof.Gen.Kernel.Skeleton
import proofs.«134765_j21689584844830_2_alg».proof.Proof.Gen.Kernel.Launch
import proofs.«134765_j21689584844830_2_alg».proof.Proof.Gen.Kernel.Points
import proofs.«134765_j21689584844830_2_alg».proof.Proof.Gen.Kernel.Frame
import proofs.«134765_j21689584844830_2_alg».proof.Proof.Gen.KernelIdeal
import proofs.«134765_j21689584844830_2_alg».proof.Proof.Gen.KernelIdeal.Skeleton
import proofs.«134765_j21689584844830_2_alg».proof.Proof.Gen.KernelIdeal.Launch
import proofs.«134765_j21689584844830_2_alg».proof.Proof.Gen.KernelIdeal.Points
import proofs.«134765_j21689584844830_2_alg».proof.Proof.Gen.KernelIdeal.Frame
import proofs.«134765_j21689584844830_2_alg».proof.Proof.Gen.ReferenceIdeal
import proofs.«134765_j21689584844830_2_alg».proof.Proof.Gen.Pre_finite_inputs
import proofs.«134765_j21689584844830_2_alg».proof.Proof.Gen.KernelIdeal.Value
import proofs.«134765_j21689584844830_2_alg».proof.Proof.Gen.ReferenceIdeal.Run
import proofs.«134765_j21689584844830_2_alg».proof.Proof.Gen.ReferenceIdeal.Read
import proofs.«134765_j21689584844830_2_alg».proof.Proof.Blocks
import proofs.«134765_j21689584844830_2_alg».proof.Proof.ReferenceProjection
import proofs.«134765_j21689584844830_2_alg».proof.Proof.SameAggregation
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the arguments, the kernel's result array ends at the projection of the
    aggregated features (block by block) and the reference's at its one product plus the bias: the same
    projection of the same aggregated features, weights and bias. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, -, -, a5, a6, -, -⟩ := hagree c
  rw [Cert.ReferenceIdeal.Read.val_main_v21_eq, Cert.ReferenceIdeal.Projected.result_eq, a0, a1, a5, a6]
  show _ = Cert.KernelIdeal.Blocks.result m c
  unfold Cert.KernelIdeal.Blocks.result
  rw [Cert.SameAggregation.aggregated_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
